-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048 : Shape := ⟨2, ![4, 2048]⟩
abbrev S32000x32 : Shape := ⟨2, ![32000, 32]⟩
abbrev S32x32000 : Shape := ⟨2, ![32, 32000]⟩
abbrev S32000 : Shape := ⟨1, ![32000]⟩
abbrev S_ : Shape := ⟨0, ![]⟩

class Facts : Prop where
  bcast_S_S32000x32 : S_.BroadcastsInDim S32000x32 (![] : Fin 0 → Fin S32000x32.rank)
  reducesTo_S32000x32_S_d0_1 : S32000x32.ReducesTo [0, 1] S_
  h_S_ : 0 < S_.numel
  bcast_S_S32x32000 : S_.BroadcastsInDim S32x32000 (![] : Fin 0 → Fin S32x32000.rank)
  reducesTo_S32x32000_S_d0_1 : S32x32000.ReducesTo [0, 1] S_
  bcast_S_S32000 : S_.BroadcastsInDim S32000 (![] : Fin 0 → Fin S32000.rank)
  reducesTo_S32000_S_d0 : S32000.ReducesTo [0] S_

variable [Facts]

def fn {F : FTy → Type} [FloatOps F] (main_arg0 : IVec S4x2048 32) (main_arg1 : FVec F S32000x32 .f32) (main_arg2 : FVec F S32x32000 .f32) (main_arg3 : FVec F S32000 .f32) : IVec S_ 1 :=
  let main_v0 : FVec F S32000x32 .f32 := Host.absf main_arg1
  let main_cst : FVec F S_ .f32 := constant S_ .f32 0x7F800000#32
  let main_v1 : FVec F S32000x32 .f32 := broadcastInDim S32000x32 ![] bcast_S_S32000x32 main_cst
  let main_v2 : IVec S32000x32 1 := cmpf .olt main_v0 main_v1
  let main_c : IVec S_ 1 := constantI S_ 1 1#1
  let main_v3 : IVec S_ 1 := (fun x v => Host.reduce IntOp.andi x v reducesTo_S32000x32_S_d0_1 h_S_) main_v2 main_c
  let main_v4 : FVec F S32x32000 .f32 := Host.absf main_arg2
  let main_cst_0 : FVec F S_ .f32 := constant S_ .f32 0x7F800000#32
  let main_v5 : FVec F S32x32000 .f32 := broadcastInDim S32x32000 ![] bcast_S_S32x32000 main_cst_0
  let main_v6 : IVec S32x32000 1 := cmpf .olt main_v4 main_v5
  let main_c_1 : IVec S_ 1 := constantI S_ 1 1#1
  let main_v7 : IVec S_ 1 := (fun x v => Host.reduce IntOp.andi x v reducesTo_S32x32000_S_d0_1 h_S_) main_v6 main_c_1
  let main_v8 : IVec S_ 1 := andi main_v3 main_v7
  let main_v9 : FVec F S32000 .f32 := Host.absf main_arg3
  let main_cst_2 : FVec F S_ .f32 := constant S_ .f32 0x7F800000#32
  let main_v10 : FVec F S32000 .f32 := broadcastInDim S32000 ![] bcast_S_S32000 main_cst_2
  let main_v11 : IVec S32000 1 := cmpf .olt main_v9 main_v10
  let main_c_3 : IVec S_ 1 := constantI S_ 1 1#1
  let main_v12 : IVec S_ 1 := (fun x v => Host.reduce IntOp.andi x v reducesTo_S32000_S_d0 h_S_) main_v11 main_c_3
  let main_v13 : IVec S_ 1 := andi main_v8 main_v12
  main_v13
-- ==== Kernel.lean ====
abbrev S4x2048 : Shape := ⟨2, ![4, 2048]⟩
abbrev S32000x32 : Shape := ⟨2, ![32000, 32]⟩
abbrev S32x32000 : Shape := ⟨2, ![32, 32000]⟩
abbrev S32000 : Shape := ⟨1, ![32000]⟩
abbrev S_ : Shape := ⟨0, ![]⟩
abbrev S4x2048x1 : Shape := ⟨3, ![4, 2048, 1]⟩
abbrev S4x2048x32 : Shape := ⟨3, ![4, 2048, 32]⟩
abbrev S8192x32 : Shape := ⟨2, ![8192, 32]⟩
abbrev S1x32000 : Shape := ⟨2, ![1, 32000]⟩
abbrev S8192x32000 : Shape := ⟨2, ![8192, 32000]⟩
abbrev S512x32 : Shape := ⟨2, ![512, 32]⟩
abbrev S32x3200 : Shape := ⟨2, ![32, 3200]⟩
abbrev S1x3200 : Shape := ⟨2, ![1, 3200]⟩
abbrev S512x3200 : Shape := ⟨2, ![512, 3200]⟩
abbrev S4x2048x32000 : Shape := ⟨3, ![4, 2048, 32000]⟩

abbrev nBuf : Space → Nat
  | .hbm => 19
  | .vmem => 8
  | .smem => 0
  | _ => 0

abbrev bufTy : (tb : Table) → Fin (tcTables nBuf tb) → BufTy
  | .hbm, ⟨0, _⟩ => ⟨S4x2048, .i32⟩
  | .hbm, ⟨1, _⟩ => ⟨S32000x32, .f32⟩
  | .hbm, ⟨2, _⟩ => ⟨S32x32000, .f32⟩
  | .hbm, ⟨3, _⟩ => ⟨S32000, .f32⟩
  | .hbm, ⟨4, _⟩ => ⟨S_, .i32⟩
  | .hbm, ⟨5, _⟩ => ⟨S4x2048, .i32⟩
  | .hbm, ⟨6, _⟩ => ⟨S4x2048, .i1⟩
  | .hbm, ⟨7, _⟩ => ⟨S_, .i32⟩
  | .hbm, ⟨8, _⟩ => ⟨S4x2048, .i32⟩
  | .hbm, ⟨9, _⟩ => ⟨S4x2048, .i32⟩
  | .hbm, ⟨10, _⟩ => ⟨S4x2048, .i32⟩
  | .hbm, ⟨11, _⟩ => ⟨S4x2048x1, .i32⟩
  | .hbm, ⟨12, _⟩ => ⟨S4x2048x32, .f32⟩
  | .hbm, ⟨13, _⟩ => ⟨S8192x32, .f32⟩
  | .hbm, ⟨14, _⟩ => ⟨S8192x32, .bf16⟩
  | .hbm, ⟨15, _⟩ => ⟨S32x32000, .bf16⟩
  | .hbm, ⟨16, _⟩ => ⟨S1x32000, .f32⟩
  | .hbm, ⟨17, _⟩ => ⟨S8192x32000, .f32⟩
  | .hbm, ⟨18, _⟩ => ⟨S4x2048x32000, .f32⟩
  | .local _ .vmem, ⟨0, _⟩ => ⟨S512x32, .bf16⟩
  | .local _ .vmem, ⟨1, _⟩ => ⟨S512x32, .bf16⟩
  | .local _ .vmem, ⟨2, _⟩ => ⟨S32x3200, .bf16⟩
  | .local _ .vmem, ⟨3, _⟩ => ⟨S32x3200, .bf16⟩
  | .local _ .vmem, ⟨4, _⟩ => ⟨S1x3200, .f32⟩
  | .local _ .vmem, ⟨5, _⟩ => ⟨S1x3200, .f32⟩
  | .local _ .vmem, ⟨6, _⟩ => ⟨S512x3200, .f32⟩
  | .local _ .vmem, ⟨7, _⟩ => ⟨S512x3200, .f32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  shapeCasts_S4x2048x32_S8192x32 : S4x2048x32.ShapeCasts S8192x32
  bitsLt_bf16_f32 : FTy.bits .bf16 < FTy.bits .f32
  shapeCasts_S32000_S1x32000 : S32000.ShapeCasts S1x32000
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x3200_S32x3200_0_0 : ∀ a, (![0, 0] : Fin 2 → Nat) a + S32x3200.size a ≤ S32x3200.size a
  h_S32x3200 : 0 < S32x3200.numel
  shapeCasts_S32x3200_S32x3200 : S32x3200.ShapeCasts S32x3200
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S512x3200 : S1x3200.Broadcasts S512x3200
  inb_S512x3200_S512x3200_0_0 : ∀ a, (![0, 0] : Fin 2 → Nat) a + S512x3200.size a ≤ S512x3200.size a
  h_S512x3200 : 0 < S512x3200.numel
  shapeCasts_S8192x32000_S4x2048x32000 : S8192x32000.ShapeCasts S4x2048x32000
  gather_S32000x32_S4x2048x1_S4x2048x32_2_0_n_n_0_2_132_wf : GatherDims.WF S32000x32 S4x2048x1 S4x2048x32 [2] [0] [] [0] [] 2 ![1, 32]
  dot_S512x32_S32x3200_S512x3200_1_0_0_1_n_n_wf : DotDims.WF S512x32 S32x3200 S512x3200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S8192x32.size a
  hwx0_0 : ∀ i : grid0.Coords, EltTy.bits .bf16 = 32 ∨ (Rect.block (s := S8192x32) S512x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x3200.size a ≤ S32x32000.size a
  hwx0_1 : ∀ i : grid0.Coords, EltTy.bits .bf16 = 32 ∨ (Rect.block (s := S32x32000) S32x3200.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3200.size a ≤ S1x32000.size a
  hwx0_2 : ∀ i : grid0.Coords, EltTy.bits .f32 = 32 ∨ (Rect.block (s := S1x32000) S1x3200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3200.size a ≤ S8192x32000.size a
  hwx0_3 : ∀ i : grid0.Coords, EltTy.bits .f32 = 32 ∨ (Rect.block (s := S8192x32000) S512x3200.size (cc0_transform_3 i) (hinb0_3 i)).WholeWords (EltTy.packing .f32)

variable [Facts₀]

def gather_S32000x32_S4x2048x1_S4x2048x32_2_0_n_n_0_2_132 : GatherDims S32000x32 S4x2048x1 S4x2048x32 where
  offsetDims := [2]
  collapsedSliceDims := [0]
  operandBatchingDims := []
  startIndicesBatchingDims := []
  startIndexMap := [0]
  indexVectorDim := 2
  sliceSizes := ![1, 32]
  wf := gather_S32000x32_S4x2048x1_S4x2048x32_2_0_n_n_0_2_132_wf
def dot_S512x32_S32x3200_S512x3200_1_0_0_1_n_n : DotDims S512x32 S32x3200 S512x3200 where
  lhsContracting := [1]
  rhsContracting := [0]
  lhsNonContracting := [0]
  rhsNonContracting := [1]
  lhsBatch := []
  rhsBatch := []
  wf := dot_S512x32_S32x3200_S512x3200_1_0_0_1_n_n_wf

abbrev win0_0 : Pipeline.Window sig grid0 :=
  Pipeline.Window.ofSpec (Memref.whole main_v8) S512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S32x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x3200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x3200.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048 : Shape := ⟨2, ![4, 2048]⟩
abbrev S32000x32 : Shape := ⟨2, ![32000, 32]⟩
abbrev S32x32000 : Shape := ⟨2, ![32, 32000]⟩
abbrev S32000 : Shape := ⟨1, ![32000]⟩
abbrev S_ : Shape := ⟨0, ![]⟩
abbrev S4x2048x1 : Shape := ⟨3, ![4, 2048, 1]⟩
abbrev S4x2048x32 : Shape := ⟨3, ![4, 2048, 32]⟩
abbrev S4x2048x32000 : Shape := ⟨3, ![4, 2048, 32000]⟩
abbrev S1x1x32000 : Shape := ⟨3, ![1, 1, 32000]⟩

abbrev nBuf : Space → Nat
  | .hbm => 17
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S32000x32, .f32⟩
  | .hbm, ⟨2, _⟩ => ⟨S32x32000, .f32⟩
  | .hbm, ⟨3, _⟩ => ⟨S32000, .f32⟩
  | .hbm, ⟨4, _⟩ => ⟨S_, .i32⟩
  | .hbm, ⟨5, _⟩ => ⟨S4x2048, .i32⟩
  | .hbm, ⟨6, _⟩ => ⟨S4x2048, .i1⟩
  | .hbm, ⟨7, _⟩ => ⟨S_, .i32⟩
  | .hbm, ⟨8, _⟩ => ⟨S4x2048, .i32⟩
  | .hbm, ⟨9, _⟩ => ⟨S4x2048, .i32⟩
  | .hbm, ⟨10, _⟩ => ⟨S4x2048, .i32⟩
  | .hbm, ⟨11, _⟩ => ⟨S4x2048x1, .i32⟩
  | .hbm, ⟨12, _⟩ => ⟨S4x2048x32, .f32⟩
  | .hbm, ⟨13, _⟩ => ⟨S4x2048x32000, .f32⟩
  | .hbm, ⟨14, _⟩ => ⟨S1x1x32000, .f32⟩
  | .hbm, ⟨15, _⟩ => ⟨S4x2048x32000, .f32⟩
  | .hbm, ⟨16, _⟩ => ⟨S4x2048x32000, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S32000_S1x1x32000_2 : S32000.BroadcastsInDim S1x1x32000 (![2] : Fin 1 → Fin S1x1x32000.rank)
  bcast_S1x1x32000_S4x2048x32000_0_1_2 : S1x1x32000.BroadcastsInDim S4x2048x32000 (![0, 1, 2] : Fin 3 → Fin S4x2048x32000.rank)
  gather_S32000x32_S4x2048x1_S4x2048x32_2_0_n_n_0_2_132_wf : GatherDims.WF S32000x32 S4x2048x1 S4x2048x32 [2] [0] [] [0] [] 2 ![1, 32]
  dot_S4x2048x32_S32x32000_S4x2048x32000_2_0_01_1_n_n_wf : DotDims.WF S4x2048x32 S32x32000 S4x2048x32000 [2] [0] [0, 1] [1] [] []

variable [Facts₀]

def gather_S32000x32_S4x2048x1_S4x2048x32_2_0_n_n_0_2_132 : GatherDims S32000x32 S4x2048x1 S4x2048x32 where
  offsetDims := [2]
  collapsedSliceDims := [0]
  operandBatchingDims := []
  startIndicesBatchingDims := []
  startIndexMap := [0]
  indexVectorDim := 2
  sliceSizes := ![1, 32]
  wf := gather_S32000x32_S4x2048x1_S4x2048x32_2_0_n_n_0_2_132_wf
def dot_S4x2048x32_S32x32000_S4x2048x32000_2_0_01_1_n_n : DotDims S4x2048x32 S32x32000 S4x2048x32000 where
  lhsContracting := [2]
  rhsContracting := [0]
  lhsNonContracting := [0, 1]
  rhsNonContracting := [1]
  lhsBatch := []
  rhsBatch := []
  wf := dot_S4x2048x32_S32x32000_S4x2048x32000_2_0_01_1_n_n_wf

class Facts : Prop extends Facts₀ where

variable [Facts]
-- ==== Proof.Payload.lean ====
/-
  What the kernel body stores, read at one entry of the output block.

  The body loads a [512, 32] block `x0` of embedding rows, a [32, 3200] block `x1` of weight columns and a
  [1, 3200] block `x2` of the bias row, multiplies the first two into a zero accumulator, and adds the bias row
  broadcast down the 512 rows. At entry (p, q) of the [512, 3200] block that is

      Σ_{k < 32} x0(p, k) · x1(k, q) + x2(0, q):

  the product into the zero accumulator is the bare sum over the one contracted axis, whose operand indices at
  output (p, q) and contraction index k are (p, k) and (k, q); the casts to the same shape are the identity; the
  broadcast of a one-row matrix reads row 0.
-/
import proofs.«172551_j87454124082247_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.Logits.Payload

open Cert.KernelIdeal Cert.KernelIdeal.Gen
open Idealize.ShloMosaic Idealize.ShloMosaic.ValueIdx

/-- The block product's dimension numbers: contract axis 1 of the left operand with axis 0 of the right. -/
abbrev blockDot : DotDims S512x32 S32x3200 S512x3200 := dot_S512x32_S32x3200_S512x3200_1_0_0_1_n_n

/-- Left operand index, row coordinate: the output's row. -/
theorem lhs_row (i : S512x3200.Idx) (q : blockDot.contr.Idx) : (blockDot.lhsIdx i q 0).val = (i 0).val := by
  unfold DotDims.lhsIdx
  rw [dif_neg (show ¬(0 : Fin S512x32.rank) ∈ blockDot.lhsBatch by decide),
    dif_pos (show (0 : Fin S512x32.rank) ∈ blockDot.lhsNonContracting by decide)]
  rfl

/-- Left operand index, column coordinate: the contraction index. -/
theorem lhs_col (i : S512x3200.Idx) (q : blockDot.contr.Idx) : (blockDot.lhsIdx i q 1).val = (q ⟨0, by decide⟩).val :=
  blockDot.lhsIdx_val_of_single rfl i q

/-- Right operand index, row coordinate: the contraction index. -/
theorem rhs_row (i : S512x3200.Idx) (q : blockDot.contr.Idx) : (blockDot.rhsIdx i q 0).val = (q ⟨0, by decide⟩).val :=
  blockDot.rhsIdx_val_of_single rfl i q

/-- Right operand index, column coordinate: the output's column. -/
theorem rhs_col (i : S512x3200.Idx) (q : blockDot.contr.Idx) : (blockDot.rhsIdx i q 1).val = (i 1).val := by
  unfold DotDims.rhsIdx
  rw [dif_neg (show ¬(1 : Fin S32x3200.rank) ∈ blockDot.rhsBatch by decide),
    dif_pos (show (1 : Fin S32x3200.rank) ∈ blockDot.rhsNonContracting by decide)]
  rfl

/-- The block product into the zero accumulator, at entry (p, q): the sum over k of x0(p, k) · x1(k, q). -/
theorem block_product_apply (x0 : FVec Ideal S512x32 .bf16) (x1 : FVec Ideal S32x3200 .bf16) (p : Fin 512) (q : Fin 3200) :
    FloatOps.matmul blockDot none x0 x1 (constant (F := Ideal) S512x3200 .f32 0x00000000#32) (ix2 p q)
      = ∑ k : Fin 32, x0 (ix2 p k) * x1 (ix2 k q) := by
  rw [Ideal.matmul_constant_zero_apply, ← Equiv.sum_comp (contrEquiv1 blockDot 32 rfl rfl).symm]
  refine Finset.sum_congr rfl fun k _ => ?_
  have hk := contrEquiv1_symm_val blockDot 32 rfl rfl k
  have el : blockDot.lhsIdx (ix2 p q) ((contrEquiv1 blockDot 32 rfl rfl).symm k) = ix2 p k := funext fun a => Fin.ext (by
    match a with
    | ⟨0, _⟩ => exact lhs_row _ _
    | ⟨1, _⟩ => exact (lhs_col _ _).trans hk)
  have er : blockDot.rhsIdx (ix2 p q) ((contrEquiv1 blockDot 32 rfl rfl).symm k) = ix2 k q := funext fun a => Fin.ext (by
    match a with
    | ⟨0, _⟩ => exact (rhs_row _ _).trans hk
    | ⟨1, _⟩ => exact rhs_col _ _)
  rw [el, er]

/-- The bias row broadcast down the block's rows, at entry (p, q): the row's entry q. -/
theorem bias_broadcast_apply (x2 : FVec Ideal S1x3200 .f32) (p : Fin 512) (q : Fin 3200) :
    broadcastTo S512x3200 x2 broadcasts_S1x3200_S512x3200 (ix2 p q) = x2 (ix2 (0 : Fin 1) q) :=
  broadcastTo_apply x2 broadcasts_S1x3200_S512x3200 (ix2 p q) (ix2 (0 : Fin 1) q) (fun a => match a with
    | ⟨0, _⟩ => by show 0 = if (1 : Nat) = 1 then 0 else p.val; rw [if_pos rfl]
    | ⟨1, _⟩ => by show q.val = if (3200 : Nat) = 1 then 0 else q.val; rw [if_neg (by decide)])

/-- The stored value at entry (p, q) of the output block. -/
theorem stored_apply (x0 : FVec Ideal S512x32 .bf16) (x1 : FVec Ideal S32x3200 .bf16) (x2 : FVec Ideal S1x3200 .f32)
    (p : Fin 512) (q : Fin 3200) :
    k0_pay1 (F := Ideal) x0 x1 x2 (ix2 p q) = (∑ k : Fin 32, x0 (ix2 p k) * x1 (ix2 k q)) + x2 (ix2 (0 : Fin 1) q) := by
  unfold k0_pay1
  rw [shapeCast_self, shapeCast_self, shapeCast_self, addf_apply, bias_broadcast_apply]
  exact congrArg (· + x2 (ix2 (0 : Fin 1) q)) (block_product_apply x0 x1 p q)

end Cert.Logits.Payload

end
-- ==== Proof.Spec.lean ====
/-
  The logits of an embedding lookup followed by one dense layer, as ONE function of the looked-up embeddings `E`,
  the weight matrix `W` and the bias `β`, over the extended reals:

      logits E W β (b, s, v) = Σ_{e < 32} E(b, s, e) · W(e, v) + β(v)        (b < 4, s < 2048, v < 32000).

  Two programs compute it. One contracts the [4, 2048, 32] embeddings with the [32, 32000] weights in one batched
  product and adds the bias broadcast along the vocabulary axis. The other flattens the 4 · 2048 tokens into 8192
  rows (token (b, s) is row 2048·b + s), keeps the bias as a one-row matrix, and forms the [8192, 32000] result
  `logitsRows` block by block; re-laying that result to [4, 2048, 32000] gives `logits` again (`logitsRows_at_row`).

  Both add the same 32 products `E · W` in the same order and then the same bias entry, so the two sides are equal
  by the definition of the sum alone: no distributivity, no cancellation, and hence no use of the inputs' finiteness.
-/
import Idealize.ShloMosaic.PureOps.Ideal
import Idealize.ShloMosaic.Lib.ValueIdx

noncomputable section

open scoped BigOperators

namespace Cert.Logits

open Idealize.ShloMosaic Idealize.ShloMosaic.ValueIdx

/-- The looked-up embeddings, one 32-vector per token (b, s). -/
abbrev Emb : Shape := ⟨3, ![4, 2048, 32]⟩
/-- The same with the tokens flattened into rows. -/
abbrev EmbRows : Shape := ⟨2, ![8192, 32]⟩
/-- The dense layer's weights. -/
abbrev Wt : Shape := ⟨2, ![32, 32000]⟩
/-- Its bias, as a vector and as a one-row matrix. -/
abbrev Bias : Shape := ⟨1, ![32000]⟩
abbrev BiasRow : Shape := ⟨2, ![1, 32000]⟩
/-- The logits per token, and per flattened row. -/
abbrev Out : Shape := ⟨3, ![4, 2048, 32000]⟩
abbrev OutRows : Shape := ⟨2, ![8192, 32000]⟩

/-- Token (b, s) is row 2048·b + s of the flattened arrays. -/
def row (b : Fin 4) (s : Fin 2048) : Fin 8192 := ⟨2048 * b.val + s.val, by have := b.isLt; have := s.isLt; omega⟩

theorem row_val (b : Fin 4) (s : Fin 2048) : (row b s).val = 2048 * b.val + s.val := rfl

/-- One logit: the token's embedding against column `v` of the weights, plus the bias at `v`. -/
def logitAt (E : Emb.Idx → EReal) (W : Wt.Idx → EReal) (β : Bias.Idx → EReal) (b : Fin 4) (s : Fin 2048) (v : Fin 32000) : EReal :=
  (∑ k : Fin 32, E (ix3 b s k) * W (ix2 k v)) + β (ix1 v)

/-- All of them, as an array over (b, s, v). -/
def logits (E : Emb.Idx → EReal) (W : Wt.Idx → EReal) (β : Bias.Idx → EReal) : Out.Idx → EReal :=
  fun i => logitAt E W β (i 0) (i 1) (i 2)

theorem logits_ix3 (E : Emb.Idx → EReal) (W : Wt.Idx → EReal) (β : Bias.Idx → EReal) (b : Fin 4) (s : Fin 2048) (v : Fin 32000) :
    logits E W β (ix3 b s v) = logitAt E W β b s v := rfl

/-- One entry of the flattened form: row `r` of the embeddings against column `v`, plus the one-row bias at `v`. -/
def rowLogitAt (E : EmbRows.Idx → EReal) (W : Wt.Idx → EReal) (β : BiasRow.Idx → EReal) (r : Fin 8192) (v : Fin 32000) : EReal :=
  (∑ k : Fin 32, E (ix2 r k) * W (ix2 k v)) + β (ix2 (0 : Fin 1) v)

/-- The flattened form, as an array over (r, v). -/
def logitsRows (E : EmbRows.Idx → EReal) (W : Wt.Idx → EReal) (β : BiasRow.Idx → EReal) : OutRows.Idx → EReal :=
  fun j => rowLogitAt E W β (j 0) (j 1)

theorem logitsRows_ix2 (E : EmbRows.Idx → EReal) (W : Wt.Idx → EReal) (β : BiasRow.Idx → EReal) (r : Fin 8192) (v : Fin 32000) :
    logitsRows E W β (ix2 r v) = rowLogitAt E W β r v := rfl

/-- When the flattened embeddings hold token (b, s) in row 2048·b + s and the one-row bias holds the bias vector, the
    flattened logits at that row are the token's logits: the two sums have the same terms. -/
theorem logitsRows_at_row (E : Emb.Idx → EReal) (E' : EmbRows.Idx → EReal) (W : Wt.Idx → EReal) (β : Bias.Idx → EReal)
    (β' : BiasRow.Idx → EReal) (hE : ∀ b s k, E' (ix2 (row b s) k) = E (ix3 b s k)) (hβ : ∀ v, β' (ix2 (0 : Fin 1) v) = β (ix1 v))
    (b : Fin 4) (s : Fin 2048) (v : Fin 32000) :
    rowLogitAt E' W β' (row b s) v = logitAt E W β b s v := by
  unfold rowLogitAt logitAt
  rw [hβ v]
  exact congrArg (· + β (ix1 v)) (Finset.sum_congr rfl fun k _ => by rw [hE b s k])

end Cert.Logits

end
-- ==== Proof.Blocks.lean ====
/-
  The kernel's result array after the run: the flattened logits of its three input arrays.

  The grid has 16 × 10 points. At point (I, J) the body is given rows 512·I … 512·I + 511 of the embedding rows,
  columns 3200·J … 3200·J + 3199 of the weights and of the bias row, and what it stores is written back to rows
  512·I …, columns 3200·J … of the [8192, 32000] result. Entry (p, q) of the stored block is
  Σ_k x0(p, k) · x1(k, q) + x2(0, q) (the payload, read at an index), and with the three blocks read where the
  point's rectangles say, that is the flattened logits at (512·I + p, 3200·J + q): every point writes back the
  block of ONE whole-array function. The 160 output blocks tile the array — the point covering (r, v) is
  (r / 512, v / 3200) — so the array ends equal to that function everywhere.
-/
import proofs.«172551_j87454124082247_2_alg».proof.Proof.Gen.KernelIdeal.Frame
import proofs.«172551_j87454124082247_2_alg».proof.Proof.Payload
import proofs.«172551_j87454124082247_2_alg».proof.Proof.Spec
import Idealize.ShloMosaic.Lib.Pipeline.Value

noncomputable section

open scoped BigOperators

namespace Cert.Logits.Blocks

open Cert.KernelIdeal Cert.KernelIdeal.Gen
open Idealize.ShloMosaic Idealize.ShloMosaic.TcCoe Idealize.SL.Sem
open Idealize.ShloMosaic.Pipeline (Dat)
open Idealize.ShloMosaic.ValueIdx Cert.Logits Cert.Logits.Payload

variable (m : (ℓ : Loc nD τ sig) → Buf (Elt Ideal) ℓ)

theorem offsets_zero : (![0, 0] : Fin 2 → Nat) = fun _ => 0 := funext fun a => by fin_cases a <;> rfl

/-! ## One stored entry is one entry of the flattened logits -/

/-- If the three loaded blocks are rows 512·I … of `E` and columns 3200·J … of `W` and of the one-row `β`, then entry
    (p, q) of what the body stores is the flattened logits of `E`, `W`, `β` at (512·I + p, 3200·J + q). -/
theorem stored_entry (x0 : FVec Ideal S512x32 .bf16) (x1 : FVec Ideal S32x3200 .bf16) (x2 : FVec Ideal S1x3200 .f32)
    (E : EmbRows.Idx → EReal) (W : Wt.Idx → EReal) (β : BiasRow.Idx → EReal) (I J : Nat)
    (h0 : ∀ (p : Fin 512) (k : Fin 32) (r : Fin 8192), r.val = I * 512 + p.val → x0 (ix2 p k) = E (ix2 r k))
    (h1 : ∀ (k : Fin 32) (q : Fin 3200) (v : Fin 32000), v.val = J * 3200 + q.val → x1 (ix2 k q) = W (ix2 k v))
    (h2 : ∀ (q : Fin 3200) (v : Fin 32000), v.val = J * 3200 + q.val → x2 (ix2 (0 : Fin 1) q) = β (ix2 (0 : Fin 1) v))
    (p : Fin 512) (q : Fin 3200) (r : Fin 8192) (v : Fin 32000) (hr : r.val = I * 512 + p.val) (hv : v.val = J * 3200 + q.val) :
    k0_pay1 (F := Ideal) x0 x1 x2 (ix2 p q) = logitsRows E W β (ix2 r v) := by
  rw [stored_apply, logitsRows_ix2]
  unfold rowLogitAt
  rw [h2 q v hv]
  exact congrArg (· + β (ix2 (0 : Fin 1) v)) (Finset.sum_congr rfl fun k _ => by rw [h0 p k r hr, h1 k q v hv])

/-- The same at any block index `y` and array index `i` whose coordinates are related that way. -/
theorem stored_at (x0 : FVec Ideal S512x32 .bf16) (x1 : FVec Ideal S32x3200 .bf16) (x2 : FVec Ideal S1x3200 .f32)
    (E : EmbRows.Idx → EReal) (W : Wt.Idx → EReal) (β : BiasRow.Idx → EReal) (I J : Nat)
    (h0 : ∀ (p : Fin 512) (k : Fin 32) (r : Fin 8192), r.val = I * 512 + p.val → x0 (ix2 p k) = E (ix2 r k))
    (h1 : ∀ (k : Fin 32) (q : Fin 3200) (v : Fin 32000), v.val = J * 3200 + q.val → x1 (ix2 k q) = W (ix2 k v))
    (h2 : ∀ (q : Fin 3200) (v : Fin 32000), v.val = J * 3200 + q.val → x2 (ix2 (0 : Fin 1) q) = β (ix2 (0 : Fin 1) v))
    (y : S512x3200.Idx) (i : OutRows.Idx) (hi0 : (i 0).val = I * 512 + (y 0).val) (hi1 : (i 1).val = J * 3200 + (y 1).val) :
    k0_pay1 (F := Ideal) x0 x1 x2 y = logitsRows E W β i := by
  rw [eq_ix2 y, eq_ix2 i]
  exact stored_entry x0 x1 x2 E W β I J h0 h1 h2 (y 0) (y 1) (i 0) (i 1) hi0 hi1

/-! ## The index maps over the grid -/

/-- Decided over the 160 points: the embedding rows move with the output's row block and stay at column block 0;
    the weights and the bias row stay at row block 0 and move with the output's column block; the output's block
    indices range over 16 × 10. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 15 ∧ win0_3.index t (1 : Fin 2) ≤ 9 :=
  (by decide +kernel : ∀ t : Fin grid0.N, _)

/-- Every one of the 16 × 10 output blocks is some point's. -/
theorem index_onto : ∀ (q0 : Fin 16) (q1 : Fin 10), ∃ t : Fin cfg0.N, win0_3.index t = ![q0.val, q1.val] :=
  (by decide +kernel : ∀ (q0 : Fin 16) (q1 : Fin 10), ∃ t : Fin grid0.N, win0_3.index t = ![q0.val, q1.val])

/-! ## The input blocks, read where the output's block says -/

/-- Entry (p, k) of the embedding-rows block at point `t` is row (output row block)·512 + p of the array. -/
theorem rows_block (c : Dev nD) (t : Fin cfg0.N) (p : Fin 512) (k : Fin 32) (r : Fin 8192)
    (hr : r.val = win0_3.index t (0 : Fin 2) * 512 + p.val) :
    (iblk m c 0 t : S512x32.Idx → EReal) (ix2 p k) = (V m c main_v8 : S8192x32.Idx → EReal) (ix2 r k) := by
  obtain ⟨e0, e1, -⟩ := index_facts t
  show V m c main_v8 (((cfg0.win 0).blk t).view.emb (ix2 p k)) = V m c main_v8 (ix2 r k)
  have h : ((cfg0.win 0).blk t).view.emb (ix2 p k) = ix2 r k := by
    funext a; apply Fin.ext
    match a with
    | ⟨0, _⟩ => show win0_0.index t (0 : Fin 2) * 512 + 1 * p.val = r.val; omega
    | ⟨1, _⟩ => show win0_0.index t (1 : Fin 2) * 32 + 1 * k.val = k.val; omega
  rw [h]

/-- Entry (k, q) of the weights block at point `t` is column (output column block)·3200 + q of the array. -/
theorem weights_block (c : Dev nD) (t : Fin cfg0.N) (k : Fin 32) (q : Fin 3200) (v : Fin 32000)
    (hv : v.val = win0_3.index t (1 : Fin 2) * 3200 + q.val) :
    (iblk m c 1 t : S32x3200.Idx → EReal) (ix2 k q) = (V m c main_v9 : S32x32000.Idx → EReal) (ix2 k v) := by
  obtain ⟨-, -, e2, e3, -⟩ := index_facts t
  show V m c main_v9 (((cfg0.win 1).blk t).view.emb (ix2 k q)) = V m c main_v9 (ix2 k v)
  have h : ((cfg0.win 1).blk t).view.emb (ix2 k q) = ix2 k v := by
    funext a; apply Fin.ext
    match a with
    | ⟨0, _⟩ => show win0_1.index t (0 : Fin 2) * 32 + 1 * k.val = k.val; omega
    | ⟨1, _⟩ => show win0_1.index t (1 : Fin 2) * 3200 + 1 * q.val = v.val; omega
  rw [h]

/-- Entry (0, q) of the bias-row block at point `t` is column (output column block)·3200 + q of the row. -/
theorem bias_block (c : Dev nD) (t : Fin cfg0.N) (q : Fin 3200) (v : Fin 32000)
    (hv : v.val = win0_3.index t (1 : Fin 2) * 3200 + q.val) :
    (iblk m c 2 t : S1x3200.Idx → EReal) (ix2 (0 : Fin 1) q) = (V m c main_v10 : S1x32000.Idx → EReal) (ix2 (0 : Fin 1) v) := by
  obtain ⟨-, -, -, -, e4, e5, -⟩ := index_facts t
  show V m c main_v10 (((cfg0.win 2).blk t).view.emb (ix2 (0 : Fin 1) q)) = V m c main_v10 (ix2 (0 : Fin 1) v)
  have h : ((cfg0.win 2).blk t).view.emb (ix2 (0 : Fin 1) q) = ix2 (0 : Fin 1) v := by
    funext a; apply Fin.ext
    match a with
    | ⟨0, _⟩ => show win0_2.index t (0 : Fin 2) * 1 + 1 * 0 = 0; omega
    | ⟨1, _⟩ => show win0_2.index t (1 : Fin 2) * 3200 + 1 * q.val = v.val; omega
  rw [h]

/-! ## What a point writes back, and the array after the run -/

/-- The flattened logits of the three input arrays as the region finds them. -/
abbrev rowsResult (c : Dev nD) : OutRows.Idx → EReal :=
  logitsRows (V m c main_v8 : S8192x32.Idx → EReal) (V m c main_v9 : S32x32000.Idx → EReal) (V m c main_v10 : S1x32000.Idx → EReal)

/-- What point `t` writes back is block `t` of `rowsResult`. -/
theorem flushed_eq (c : Dev nD) (t : Fin cfg0.N) :
    (dats m 0 c).flushed 3 t = ((cfg0.win 3).blk t).view.read (Elt Ideal) (rowsResult m c) := by
  show (cfg0.win 3).cut (grid0.coords t) ((dats m 0 c).after 3 t) = _
  rw [after0_3]
  unfold out0_3
  rw [View.canon_unit_zero offsets_zero]
  simp only [View.ld_unit_zero (S := S512x32) offsets_zero, View.ld_unit_zero (S := S32x3200) offsets_zero,
    View.ld_unit_zero (S := S1x3200) offsets_zero]
  funext j
  show k0_pay1 (iblk m c 0 t) (iblk m c 1 t) (iblk m c 2 t) j = rowsResult m c (((cfg0.win 3).blk t).view.emb j)
  refine stored_at (iblk m c 0 t) (iblk m c 1 t) (iblk m c 2 t) _ _ _ (win0_3.index t (0 : Fin 2)) (win0_3.index t (1 : Fin 2))
    (fun p k r hr => rows_block m c t p k r hr) (fun k q v hv => weights_block m c t k q v hv)
    (fun q v hv => bias_block m c t q v hv) j (((cfg0.win 3).blk t).view.emb j) ?_ ?_
  · show win0_3.index t (0 : Fin 2) * 512 + 1 * (j 0).val = win0_3.index t (0 : Fin 2) * 512 + (j 0).val
    omega
  · show win0_3.index t (1 : Fin 2) * 3200 + 1 * (j 1).val = win0_3.index t (1 : Fin 2) * 3200 + (j 1).val
    omega

/-- An index of the result array is in point `t`'s block iff each coordinate is in the block's range on its axis. -/
theorem mem_block (t : Fin cfg0.N) (i : S8192x32000.Idx) :
    i ∈ ((cfg0.win 3).blk t).view.set ↔ ∀ a : Fin 2, win0_3.index t a * S512x3200.size a ≤ (i a).val
      ∧ (i a).val < win0_3.index t a * S512x3200.size a + S512x3200.size a := by
  show i ∈ ((View.whole main_v11).slice (win0_3.rect t)).set ↔ _
  rw [View.set_slice_whole, Rect.mem_set_unit]
  exact Iff.rfl

/-- The blocks tile the array: (r, v) is in the block of the point with block indices (r / 512, v / 3200). -/
theorem covered (i : S8192x32000.Idx) : ∃ t : Fin cfg0.N, (cfg0.win 3).flush t = true ∧ i ∈ ((cfg0.win 3).blk t).view.set := by
  have hi0 : (i 0).val < 8192 := (i 0).isLt
  have hi1 : (i 1).val < 32000 := (i 1).isLt
  obtain ⟨t, ht⟩ := index_onto ⟨(i 0).val / 512, by omega⟩ ⟨(i 1).val / 3200, by omega⟩
  have q0 : win0_3.index t (0 : Fin 2) = (i 0).val / 512 := congrFun ht 0
  have q1 : win0_3.index t (1 : Fin 2) = (i 1).val / 3200 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3200 ≤ (i 1).val ∧ (i 1).val < win0_3.index t (1 : Fin 2) * 3200 + 3200; omega

/-- The result array after the run is `rowsResult`. -/
theorem result_rows (c : Dev nD) : (dats m 0 c).arrAt 3 cfg0.N = rowsResult m c :=
  (dats m 0 c).arrAt_eq_of_cover 3 (rowsResult m c) (fun t _ => flushed_eq m c t) covered

end Cert.Logits.Blocks

end
-- ==== Proof.Entry.lean ====
/-
  What the kernel's three input arrays hold when the region is entered, in terms of the program's arguments.

  Before the region the program looks the token ids up in the embedding table (a negative id is first wrapped by
  adding the table's 32000 rows) — the array `embeddings`, of shape [4, 2048, 32], which is never opened here —,
  flattens it to [8192, 32] rows and narrows it to bf16; narrows the weights to bf16; and re-lays the bias vector as
  a [1, 32000] row. Over the extended reals a change of float format is the identity, and a re-laying keeps the
  row-major position, so:
    * row 2048·b + s of the first array is token (b, s)'s embedding (2048·b + s and (b, s) have the same
      row-major position once the last axis is appended: (b·2048 + s)·32 + k on both sides);
    * the second array is the weights;
    * entry (0, v) of the third is the bias at v.
-/
import proofs.«172551_j87454124082247_2_alg».proof.Proof.Gen.KernelIdeal.Frame
import proofs.«172551_j87454124082247_2_alg».proof.Proof.Spec
import Idealize.ShloMosaic.Lib.ValueIdx
import Idealize.ShloMosaic.Lib.Pipeline.Value
import Idealize.ShloMosaic.Lib.StableHlo.Run

noncomputable section

namespace Cert.Logits.Entry

open Cert.KernelIdeal Cert.KernelIdeal.Gen
open Idealize.ShloMosaic Idealize.ShloMosaic.TcCoe Idealize.SL.Sem Idealize.ShloMosaic.StableHlo
open Idealize.ShloMosaic.ValueIdx Cert.Logits

variable (m : (ℓ : Loc nD τ sig) → Buf (Elt Ideal) ℓ)

/-- The looked-up embeddings on core `c`: the table gathered at the token ids, a negative id wrapped once. -/
def embeddings (c : Dev nD) : FVec Ideal S4x2048x32 .f32 :=
  Host.gather gather_S32000x32_S4x2048x1_S4x2048x32_2_0_n_n_0_2_132 (m ((c.tc : Thread nD τ).loc main_arg1))
    (broadcastInDim S4x2048x1 ![0, 1] bcast_S4x2048_S4x2048x1_0_1
      (select (cmpi .slt (m ((c.tc : Thread nD τ).loc main_arg0)) (broadcastInDim S4x2048 ![] bcast_S_S4x2048 (constantI S_ 32 0#32)))
        (addi (m ((c.tc : Thread nD τ).loc main_arg0)) (broadcastInDim S4x2048 ![] bcast_S_S4x2048 (constantI S_ 32 32000#32)))
        (m ((c.tc : Thread nD τ).loc main_arg0))))

/-- The first input array is the embeddings flattened to rows and narrowed. -/
theorem rows_eq (c : Dev nD) :
    (V m c main_v8 : S8192x32.Idx → EReal)
      = truncf .bf16 (shapeCast S8192x32 (embeddings m c) shapeCasts_S4x2048x32_S8192x32) bitsLt_bf16_f32 := by
  show StableHlo.after hostOps0 (fun b => m (c, b)) (Proc.devRef .tc main_v8) = _
  after_results <;> rfl

/-- The second is the weights narrowed. -/
theorem weights_eq (c : Dev nD) :
    (V m c main_v9 : S32x32000.Idx → EReal)
      = (truncf (F := Ideal) .bf16 (m ((c.tc : Thread nD τ).loc main_arg2) : FVec Ideal S32x32000 .f32) bitsLt_bf16_f32 : FVec Ideal S32x32000 .bf16) := by
  show StableHlo.after hostOps0 (fun b => m (c, b)) (Proc.devRef .tc main_v9) = _
  after_results <;> rfl

/-- The third is the bias vector re-laid as one row. -/
theorem bias_eq (c : Dev nD) :
    (V m c main_v10 : S1x32000.Idx → EReal) = shapeCast S1x32000 (m ((c.tc : Thread nD τ).loc main_arg3)) shapeCasts_S32000_S1x32000 := by
  show StableHlo.after hostOps0 (fun b => m (c, b)) (Proc.devRef .tc main_v10) = _
  after_results <;> rfl

/-- Row 2048·b + s of the first input array is token (b, s)'s embedding. -/
theorem rows_apply (c : Dev nD) (b : Fin 4) (s : Fin 2048) (k : Fin 32) :
    (V m c main_v8 : S8192x32.Idx → EReal) (ix2 (row b s) k) = embeddings m c (ix3 b s k) := by
  rw [rows_eq, truncf_apply]
  refine shapeCast_apply _ _ (ix2 (row b s) k) (ix3 b s k) ?_
  rw [Shape.rowMajor_val_three, Shape.rowMajor_val_two]
  show (b.val * 2048 + s.val) * 32 + k.val = (2048 * b.val + s.val) * 32 + k.val
  omega

/-- The second input array is the weights, entry by entry. -/
theorem weights_apply (c : Dev nD) (i : S32x32000.Idx) :
    (V m c main_v9 : S32x32000.Idx → EReal) i = (m ((c.tc : Thread nD τ).loc main_arg2) : S32x32000.Idx → EReal) i := by
  rw [weights_eq, truncf_apply]

/-- So the second input array and the weights argument are one function. -/
theorem weights_fn (c : Dev nD) :
    (V m c main_v9 : S32x32000.Idx → EReal) = (m ((c.tc : Thread nD τ).loc main_arg2) : S32x32000.Idx → EReal) :=
  funext (weights_apply m c)

/-- Entry (0, v) of the third input array is the bias at v. -/
theorem bias_apply (c : Dev nD) (v : Fin 32000) :
    (V m c main_v10 : S1x32000.Idx → EReal) (ix2 (0 : Fin 1) v) = (m ((c.tc : Thread nD τ).loc main_arg3) : S32000.Idx → EReal) (ix1 v) := by
  rw [bias_eq]
  refine shapeCast_apply _ _ (ix2 (0 : Fin 1) v) (ix1 v) ?_
  rw [Shape.rowMajor_val_one, Shape.rowMajor_val_two]
  show v.val = 0 * 32000 + v.val
  omega

end Cert.Logits.Entry

end
-- ==== Proof.KernelRun.lean ====
/-
  The kernel program's run, read: its result is `logits` of the looked-up embeddings, the weights and the bias.

  After the region the program re-lays the [8192, 32000] result array as [4, 2048, 32000]. The region leaves that array
  equal to the flattened logits of its three input arrays; a re-laying keeps the row-major position, and (b, s, v) and
  (2048·b + s, v) have the same one, (b·2048 + s)·32000 + v; row 2048·b + s of the first input array is token (b, s)'s
  embedding, the second is the weights, entry (0, v) of the third is the bias at v. So the program's result at
  (b, s, v) is Σ_k E(b, s, k) · W(k, v) + β(v).
-/
import proofs.«172551_j87454124082247_2_alg».proof.Proof.Gen.KernelIdeal.Frame
import proofs.«172551_j87454124082247_2_alg».proof.Proof.Blocks
import proofs.«172551_j87454124082247_2_alg».proof.Proof.Entry
import proofs.«172551_j87454124082247_2_alg».proof.Proof.Spec
import Idealize.ShloMosaic.Lib.StableHlo.Run
import Idealize.ShloMosaic.Lib.Pipeline.Value

noncomputable section

namespace Cert.Logits.KernelRun

open Cert.KernelIdeal Cert.KernelIdeal.Gen
open Idealize.ShloMosaic Idealize.ShloMosaic.TcCoe Idealize.SL.Sem Idealize.ShloMosaic.StableHlo
open Idealize.ShloMosaic.ValueIdx Cert.Logits Cert.Logits.Entry Cert.Logits.Blocks

variable (m : (ℓ : Loc nD τ sig) → Buf (Elt Ideal) ℓ) (ρ : Dev nD → PrngReg)

/-- The program's result buffer after the operations that follow the region: the region's result array re-laid. -/
theorem tail_eq (c : Dev nD) :
    (Pipeline.afterTail₀ cfgs (dats m) 0 (V0 m) [hostOps1] c main_v12 : S4x2048x32000.Idx → EReal)
      = shapeCast S4x2048x32000 ((dats m 0 c).arrAt 3 cfg0.N) shapeCasts_S8192x32000_S4x2048x32000 := by
  unfold Pipeline.afterTail₀
  show StableHlo.after hostOps1 _ (Proc.devRef .tc main_v12) = _
  after_results
  have e : Pipeline.withArrays (cfgs 0).spec c (V0 m c) (fun w => (dats m 0 c).arrAt w (cfgs 0).N) (Proc.devRef .tc main_v11)
      = (dats m 0 c).arrAt 3 cfg0.N :=
    Pipeline.withArrays_arr spec0 launch0.win.arr_inj c _ _ 3
  rw [e]
  rfl

/-- It is `logits` of the looked-up embeddings, the weights argument and the bias argument. -/
theorem result_eq (c : Dev nD) :
    (Pipeline.afterTail₀ cfgs (dats m) 0 (V0 m) [hostOps1] c main_v12 : S4x2048x32000.Idx → EReal)
      = logits (embeddings m c) (m ((c.tc : Thread nD τ).loc main_arg2)) (m ((c.tc : Thread nD τ).loc main_arg3)) := by
  rw [tail_eq, result_rows]
  funext i
  obtain ⟨b, s, v, rfl⟩ : ∃ (b : Fin 4) (s : Fin 2048) (v : Fin 32000), i = ix3 b s v := ⟨i 0, i 1, i 2, eq_ix3 i⟩
  rw [logits_ix3]
  refine (shapeCast_apply _ _ (ix3 b s v) (ix2 (row b s) v) ?_).trans ?_
  · rw [Shape.rowMajor_val_two, Shape.rowMajor_val_three]
    show (2048 * b.val + s.val) * 32000 + v.val = (b.val * 2048 + s.val) * 32000 + v.val
    omega
  · unfold rowsResult
    rw [logitsRows_ix2, weights_fn]
    exact logitsRows_at_row (embeddings m c) _ _ (m ((c.tc : Thread nD τ).loc main_arg3)) _ (rows_apply m c) (bias_apply m c) b s v

/-- Every weakly fair execution of the kernel program terminates with its result at `logits` of the looked-up
    embeddings, the weights and the bias, and its arguments unchanged. -/
theorem run : θ_run defs (onTc (τ := τ) (main (F := Ideal))) ⟨m, fun _ => 0, ρ⟩ fun r => ∀ c : Dev nD,
      r.2.mem ((c.tc : Thread nD τ).loc main_v12)
        = logits (embeddings m c) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v12 (Pipeline.mem_restRefs_of main_v12 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.Logits.KernelRun

end
-- ==== Proof.Reference.lean ====
/-
  The reference program's result is `logits` of its own looked-up embeddings, its weights and its bias.

  Read one operation at a time: the last operation adds, entry by entry, the batched contraction
  Σ_k E(b, s, k) · W(k, v) (the contraction's operand indices at output (b, s, v) and contraction index k are
  (b, s, k) and (k, v)) to the bias broadcast first to [1, 1, 32000] and then to [4, 2048, 32000], which at
  (b, s, v) reads the bias at v. That is `logitAt` term for term.
-/
import proofs.«172551_j87454124082247_2_alg».proof.Proof.Gen.ReferenceIdeal.Read
import proofs.«172551_j87454124082247_2_alg».proof.Proof.Spec

noncomputable section

open scoped BigOperators

namespace Cert.Logits.Reference

open Cert.ReferenceIdeal Cert.ReferenceIdeal.Gen Cert.ReferenceIdeal.Read
open Idealize.ShloMosaic Idealize.ShloMosaic.ValueIdx Cert.Logits

/-- The contraction's left operand index at output (b, s, v), contraction index k: the token's k-th embedding entry. -/
theorem lidx_eq (b : Fin 4) (s : Fin 2048) (v : Fin 32000) (k : Fin 32) : lidx_main_v7 (ix3 b s v) k = ix3 b s k :=
  funext fun a => Fin.ext (by match a with | ⟨0, _⟩ => rfl | ⟨1, _⟩ => rfl | ⟨2, _⟩ => rfl)

/-- Its right operand index: row k, column v of the weights. -/
theorem ridx_eq (b : Fin 4) (s : Fin 2048) (v : Fin 32000) (k : Fin 32) : ridx_main_v7 (ix3 b s v) k = ix2 k v :=
  funext fun a => Fin.ext (by match a with | ⟨0, _⟩ => rfl | ⟨1, _⟩ => rfl)

/-- The twice-broadcast bias at (b, s, v) reads the bias vector at v. -/
theorem bidx_eq (b : Fin 4) (s : Fin 2048) (v : Fin 32000) : idx_main_v8 (idx_main_v9 (ix3 b s v)) = ix1 v :=
  funext fun a => Fin.ext (by match a with | ⟨0, _⟩ => rfl)

/-- The reference's result array is `logits` of its looked-up embeddings (the gather stage, left unopened), the weights
    and the bias. -/
theorem result_eq (x0 : (⟨S4x2048, .i32⟩ : BufTy).Contents (Elt Ideal)) (x1 : (⟨S32000x32, .f32⟩ : BufTy).Contents (Elt Ideal))
    (x2 : (⟨S32x32000, .f32⟩ : BufTy).Contents (Elt Ideal)) (x3 : (⟨S32000, .f32⟩ : BufTy).Contents (Elt Ideal)) :
    val_main_v10 (F := Ideal) x0 x1 x2 x3 = logits (val_main_v6 (F := Ideal) x0 x1) x2 x3 := by
  funext i
  obtain ⟨b, s, v, rfl⟩ : ∃ (b : Fin 4) (s : Fin 2048) (v : Fin 32000), i = ix3 b s v := ⟨i 0, i 1, i 2, eq_ix3 i⟩
  rw [logits_ix3, val_main_v10_apply, val_main_v7_apply, val_main_v9_apply, val_main_v8_apply]
  simp only [lidx_eq, ridx_eq, bidx_eq]
  rfl

end Cert.Logits.Reference

end
-- ==== Proof.lean ====
/-
  An embedding lookup followed by one dense layer, computed two ways, gives the same logits over the extended reals.

  Both programs first look the [4, 2048] token ids up in the [32000, 32] embedding table, by the same operations
  (a negative id wrapped once by the table's 32000 rows, then one gather): the looked-up embeddings `E` are one and the
  same array of the arguments on both sides, and the proof never opens the lookup.

  The reference contracts `E` with the [32, 32000] weights `W` in one batched product and adds the bias `β` broadcast
  along the vocabulary axis: its result at token (b, s) and vocabulary entry v is Σ_{k < 32} E(b, s, k) · W(k, v) + β(v).

  The kernel program flattens the tokens into 8192 rows (token (b, s) is row 2048·b + s), narrows `E` and `W` to a
  shorter float format (the identity on extended reals), re-lays `β` as a one-row matrix, and runs a 16 × 10 grid: point
  (I, J) multiplies rows 512·I … of the embeddings with columns 3200·J … of the weights into a zero accumulator, adds the
  bias row's columns 3200·J … to every row, and writes the [512, 3200] block back at (512·I, 3200·J) of the [8192, 32000]
  result; the 160 blocks tile the result, which is finally re-laid as [4, 2048, 32000]. Read at (b, s, v) that is the
  same sum of the same 32 products, in the same order, plus the same bias entry.

  So the two results are equal by the definition of the sum; nothing is distributed or cancelled, and the
  precondition (finite inputs) is not used. The idealization rewrote no operation of the kernel program, so there is
  nothing to preserve. Each program's frame — it terminates, faults nowhere and leaves its arguments unchanged — is
  the generated frame of the kernel programs and, for the reference, its run with the result dropped.
-/
import proofs.«172551_j87454124082247_2_alg».proof.Defs
import proofs.«172551_j87454124082247_2_alg».proof.Proof.Gen.Kernel
import proofs.«172551_j87454124082247_2_alg».proof.Proof.Gen.Kernel.Skeleton
import proofs.«172551_j87454124082247_2_alg».proof.Proof.Gen.Kernel.Launch
import proofs.«172551_j87454124082247_2_alg».proof.Proof.Gen.Kernel.Points
import proofs.«172551_j87454124082247_2_alg».proof.Proof.Gen.Kernel.Frame
import proofs.«172551_j87454124082247_2_alg».proof.Proof.Gen.KernelIdeal
import proofs.«172551_j87454124082247_2_alg».proof.Proof.Gen.KernelIdeal.Skeleton
import proofs.«172551_j87454124082247_2_alg».proof.Proof.Gen.KernelIdeal.Launch
import proofs.«172551_j87454124082247_2_alg».proof.Proof.Gen.KernelIdeal.Points
import proofs.«172551_j87454124082247_2_alg».proof.Proof.Gen.KernelIdeal.Frame
import proofs.«172551_j87454124082247_2_alg».proof.Proof.Gen.ReferenceIdeal
import proofs.«172551_j87454124082247_2_alg».proof.Proof.Gen.Pre_finite_inputs
import proofs.«172551_j87454124082247_2_alg».proof.Proof.Gen.ReferenceIdeal.Run
import proofs.«172551_j87454124082247_2_alg».proof.Proof.Gen.ReferenceIdeal.Read
import proofs.«172551_j87454124082247_2_alg».proof.Proof.KernelRun
import proofs.«172551_j87454124082247_2_alg».proof.Proof.Reference
import Idealize.ShloMosaic.Adequacy
import Idealize.ShloMosaic.Init

noncomputable section

namespace Cert.Proof

open Idealize.ShloMosaic Idealize.SL.Sem

/-- The kernel program as printed terminates, faults nowhere and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both idealized programs end with the same logits: the kernel program's result is
    `logits` of the looked-up embeddings, the weights and the bias; the reference's is `logits` of ITS looked-up
    embeddings, weights and bias; and the two lookups are the same operations of the same arguments. -/
theorem algebraic : Cert.algebraic_KernelIdeal_ReferenceIdeal := by
  intro m ρ m' ρ' _ hagree
  refine ⟨fun c => Cert.Logits.logits (Cert.Logits.Entry.embeddings m c)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Logits.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.Logits.Reference.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
